-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048x565 : Shape := ⟨2, ![2048, 565]⟩
abbrev S8x565 : Shape := ⟨2, ![8, 565]⟩
abbrev S2048 : Shape := ⟨1, ![2048]⟩
abbrev S565x1 : Shape := ⟨2, ![565, 1]⟩
abbrev S1x8 : Shape := ⟨2, ![1, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x565 : S_.BroadcastsInDim S2048x565 (![] : Fin 0 → Fin S2048x565.rank)
  reducesTo_S2048x565_S_d0_1 : S2048x565.ReducesTo [0, 1] S_
  bcast_S_S8x565 : S_.BroadcastsInDim S8x565 (![] : Fin 0 → Fin S8x565.rank)
  reducesTo_S8x565_S_d0_1 : S8x565.ReducesTo [0, 1] S_
  bcast_S_S2048 : S_.BroadcastsInDim S2048 (![] : Fin 0 → Fin S2048.rank)
  reducesTo_S2048_S_d0 : S2048.ReducesTo [0] S_
  bcast_S_S565x1 : S_.BroadcastsInDim S565x1 (![] : Fin 0 → Fin S565x1.rank)
  reducesTo_S565x1_S_d0_1 : S565x1.ReducesTo [0, 1] S_
  bcast_S_S1x8 : S_.BroadcastsInDim S1x8 (![] : Fin 0 → Fin S1x8.rank)
  reducesTo_S1x8_S_d0_1 : S1x8.ReducesTo [0, 1] S_

variable [Facts]

def fn_part2 {F : FTy → Type} [FloatOps F] (main_arg7 : FVec F S1x8 .f32) (main_v33 : IVec S_ 1) : IVec S_ 1 :=
  let main_v34 : FVec F S1x8 .f32 := Host.absf main_arg7
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  main_v38

def fn_part1 {F : FTy → Type} [FloatOps F] (main_arg4 : FVec F S8x565 .f32) (main_arg5 : FVec F S2048 .f32) (main_arg6 : FVec F S565x1 .f32) (main_arg7 : FVec F S1x8 .f32) (main_v13 : IVec S_ 1) (main_v16 : IVec S2048x565 1) : IVec S_ 1 :=
  let main_c_5 : IVec S_ 1 := constantI S_ 1 1#1
  let main_v17 : IVec S_ 1 := (fun x v => Host.reduce IntOp.andi x v reducesTo_S2048x565_S_d0_1 h_S_) main_v16 main_c_5
  let main_v18 : IVec S_ 1 := andi main_v13 main_v17
  let main_v19 : FVec F S8x565 .f32 := Host.absf main_arg4
  let main_cst_6 : FVec F S_ .f32 := constant S_ .f32 0x7F800000#32
  let main_v20 : FVec F S8x565 .f32 := broadcastInDim S8x565 ![] bcast_S_S8x565 main_cst_6
  let main_v21 : IVec S8x565 1 := cmpf .olt main_v19 main_v20
  let main_c_7 : IVec S_ 1 := constantI S_ 1 1#1
  let main_v22 : IVec S_ 1 := (fun x v => Host.reduce IntOp.andi x v reducesTo_S8x565_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S565x1 .f32 := Host.absf main_arg6
  let main_cst_10 : FVec F S_ .f32 := constant S_ .f32 0x7F800000#32
  let main_v30 : FVec F S565x1 .f32 := broadcastInDim S565x1 ![] bcast_S_S565x1 main_cst_10
  let main_v31 : IVec S565x1 1 := cmpf .olt main_v29 main_v30
  let main_c_11 : IVec S_ 1 := constantI S_ 1 1#1
  let main_v32 : IVec S_ 1 := (fun x v => Host.reduce IntOp.andi x v reducesTo_S565x1_S_d0_1 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S2048x2048 .f32) (main_arg2 : FVec F S2048x565 .f32) (main_arg3 : FVec F S2048x565 .f32) (main_arg4 : FVec F S8x565 .f32) (main_arg5 : FVec F S2048 .f32) (main_arg6 : FVec F S565x1 .f32) (main_arg7 : FVec F S1x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x565 .f32 := Host.absf main_arg2
  let main_cst_2 : FVec F S_ .f32 := constant S_ .f32 0x7F800000#32
  let main_v10 : FVec F S2048x565 .f32 := broadcastInDim S2048x565 ![] bcast_S_S2048x565 main_cst_2
  let main_v11 : IVec S2048x565 1 := cmpf .olt main_v9 main_v10
  let main_c_3 : IVec S_ 1 := constantI S_ 1 1#1
  let main_v12 : IVec S_ 1 := (fun x v => Host.reduce IntOp.andi x v reducesTo_S2048x565_S_d0_1 h_S_) main_v11 main_c_3
  let main_v13 : IVec S_ 1 := andi main_v8 main_v12
  let main_v14 : FVec F S2048x565 .f32 := Host.absf main_arg3
  let main_cst_4 : FVec F S_ .f32 := constant S_ .f32 0x7F800000#32
  let main_v15 : FVec F S2048x565 .f32 := broadcastInDim S2048x565 ![] bcast_S_S2048x565 main_cst_4
  let main_v16 : IVec S2048x565 1 := cmpf .olt main_v14 main_v15
  fn_part1 (F := F) main_arg4 main_arg5 main_arg6 main_arg7 main_v13 main_v16
-- ==== Kernel.lean ====
abbrev S16384x2048 : Shape := ⟨2, ![16384, 2048]⟩
abbrev S2048x2048 : Shape := ⟨2, ![2048, 2048]⟩
abbrev S2048x565 : Shape := ⟨2, ![2048, 565]⟩
abbrev S8x565 : Shape := ⟨2, ![8, 565]⟩
abbrev S2048 : Shape := ⟨1, ![2048]⟩
abbrev S565x1 : Shape := ⟨2, ![565, 1]⟩
abbrev S1x8 : Shape := ⟨2, ![1, 8]⟩
abbrev S_ : Shape := ⟨0, ![]⟩
abbrev S2048x768 : Shape := ⟨2, ![2048, 768]⟩
abbrev S565x2048 : Shape := ⟨2, ![565, 2048]⟩
abbrev S768x2048 : Shape := ⟨2, ![768, 2048]⟩
abbrev S8x768 : Shape := ⟨2, ![8, 768]⟩
abbrev S1x565 : Shape := ⟨2, ![1, 565]⟩
abbrev S1x768 : Shape := ⟨2, ![1, 768]⟩
abbrev S1x2048 : Shape := ⟨2, ![1, 2048]⟩
abbrev S256x2048 : Shape := ⟨2, ![256, 2048]⟩
abbrev S256x768 : Shape := ⟨2, ![256, 768]⟩
abbrev S256 : Shape := ⟨1, ![256]⟩
abbrev S256x1 : Shape := ⟨2, ![256, 1]⟩
abbrev S256x8 : Shape := ⟨2, ![256, 8]⟩

abbrev nBuf : Space → Nat
  | .hbm => 24
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x565, .f32⟩
  | .hbm, ⟨3, _⟩ => ⟨S2048x565, .f32⟩
  | .hbm, ⟨4, _⟩ => ⟨S8x565, .f32⟩
  | .hbm, ⟨5, _⟩ => ⟨S2048, .f32⟩
  | .hbm, ⟨6, _⟩ => ⟨S565x1, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S2048x768, .f32⟩
  | .hbm, ⟨11, _⟩ => ⟨S565x2048, .f32⟩
  | .hbm, ⟨12, _⟩ => ⟨S_, .i32⟩
  | .hbm, ⟨13, _⟩ => ⟨S_, .f32⟩
  | .hbm, ⟨14, _⟩ => ⟨S768x2048, .f32⟩
  | .hbm, ⟨15, _⟩ => ⟨S_, .i32⟩
  | .hbm, ⟨16, _⟩ => ⟨S_, .f32⟩
  | .hbm, ⟨17, _⟩ => ⟨S8x768, .f32⟩
  | .hbm, ⟨18, _⟩ => ⟨S1x565, .f32⟩
  | .hbm, ⟨19, _⟩ => ⟨S_, .i32⟩
  | .hbm, ⟨20, _⟩ => ⟨S_, .f32⟩
  | .hbm, ⟨21, _⟩ => ⟨S1x768, .f32⟩
  | .hbm, ⟨22, _⟩ => ⟨S1x2048, .f32⟩
  | .hbm, ⟨23, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x768, .f32⟩
  | .local _ .vmem, ⟨4, _⟩ => ⟨S768x2048, .f32⟩
  | .local _ .vmem, ⟨5, _⟩ => ⟨S8x768, .f32⟩
  | .local _ .vmem, ⟨6, _⟩ => ⟨S1x768, .f32⟩
  | .local _ .vmem, ⟨7, _⟩ => ⟨S1x8, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_c_1 : Ref sig .tc := ⟨.hbm, 15, rfl⟩
abbrev main_call2_v0 : Ref sig .tc := ⟨.hbm, 16, rfl⟩
abbrev main_v3 : Ref sig .tc := ⟨.hbm, 17, rfl⟩
abbrev main_v4 : Ref sig .tc := ⟨.hbm, 18, rfl⟩
abbrev main_c_2 : Ref sig .tc := ⟨.hbm, 19, rfl⟩
abbrev main_call3_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S2048x565_S2048x768_000_02030 : S2048x565.Pads (![0, 0] : Fin 2 → Nat) ![0, 203] ![0, 0] S2048x768
  h_S_ : 0 < S_.numel
  transposes_S2048x565_S565x2048_1_0 : S2048x565.Transposes [1, 0] S565x2048
  pads_S565x2048_S768x2048_02030_000 : S565x2048.Pads (![0, 0] : Fin 2 → Nat) ![203, 0] ![0, 0] S768x2048
  pads_S8x565_S8x768_000_02030 : S8x565.Pads (![0, 0] : Fin 2 → Nat) ![0, 203] ![0, 0] S8x768
  transposes_S565x1_S1x565_1_0 : S565x1.Transposes [1, 0] S1x565
  pads_S1x565_S1x768_000_02030 : S1x565.Pads (![0, 0] : Fin 2 → Nat) ![0, 203] ![0, 0] S1x768
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  reduces_S256x768_S256 : S256x768.Reduces [1] S256
  shapeCasts_S256_S256x1 : S256.ShapeCasts S256x1
  inb_S1x8_S1x8_0_0 : ∀ a, (![0, 0] : Fin 2 → Nat) a + S1x8.size a ≤ S1x8.size a
  h_S1x8 : 0 < S1x8.numel
  broadcasts_S256x1_S256x8 : S256x1.Broadcasts S256x8
  broadcasts_S1x8_S256x8 : S1x8.Broadcasts S256x8
  reduces_S256x8_S256 : S256x8.Reduces [1] S256
  inb_S2048x2048_S2048x2048_0_0 : ∀ a, (![0, 0] : Fin 2 → Nat) a + S2048x2048.size a ≤ S2048x2048.size a
  h_S2048x2048 : 0 < S2048x2048.numel
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x768_S256x768_1_0_0_1_n_n_wf : DotDims.WF S256x2048 S2048x768 S256x768 [1] [0] [0] [1] [] []
  dot_S256x2048_S2048x2048_S256x2048_1_0_0_1_n_n_wf : DotDims.WF S256x2048 S2048x2048 S256x2048 [1] [0] [0] [1] [] []
  dot_S256x8_S8x768_S256x768_1_0_0_1_n_n_wf : DotDims.WF S256x8 S8x768 S256x768 [1] [0] [0] [1] [] []
  dot_S256x768_S768x2048_S256x2048_1_0_0_1_n_n_wf : DotDims.WF S256x768 S768x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .f32 = 32 ∨ (Rect.block (s := S2048x768) S2048x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x2048.size a ≤ S768x2048.size a
  hwx0_3 : ∀ i : grid0.Coords, EltTy.bits .f32 = 32 ∨ (Rect.block (s := S768x2048) S768x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x768.size a ≤ S8x768.size a
  hwx0_4 : ∀ i : grid0.Coords, EltTy.bits .f32 = 32 ∨ (Rect.block (s := S8x768) S8x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S16384x2048.size a
  hwx0_8 : ∀ i : grid0.Coords, EltTy.bits .f32 = 32 ∨ (Rect.block (s := S16384x2048) S256x2048.size (cc0_transform_8 i) (hinb0_8 i)).WholeWords (EltTy.packing .f32)

variable [Facts₀]

def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x8_S8x768_S256x768_1_0_0_1_n_n : DotDims S256x8 S8x768 S256x768 where
  lhsContracting := [1]
  rhsContracting := [0]
  lhsNonContracting := [0]
  rhsNonContracting := [1]
  lhsBatch := []
  rhsBatch := []
  wf := dot_S256x8_S8x768_S256x768_1_0_0_1_n_n_wf
def dot_S256x768_S768x2048_S256x2048_1_0_0_1_n_n : DotDims S256x768 S768x2048 S256x2048 where
  lhsContracting := [1]
  rhsContracting := [0]
  lhsNonContracting := [0]
  rhsNonContracting := [1]
  lhsBatch := []
  rhsBatch := []
  wf := dot_S256x768_S768x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048x565 : Shape := ⟨2, ![2048, 565]⟩
abbrev S8x565 : Shape := ⟨2, ![8, 565]⟩
abbrev S2048 : Shape := ⟨1, ![2048]⟩
abbrev S565x1 : Shape := ⟨2, ![565, 1]⟩
abbrev S1x8 : Shape := ⟨2, ![1, 8]⟩
abbrev S16384x565 : Shape := ⟨2, ![16384, 565]⟩
abbrev S16384x1 : Shape := ⟨2, ![16384, 1]⟩
abbrev S16384x8 : Shape := ⟨2, ![16384, 8]⟩
abbrev S_ : Shape := ⟨0, ![]⟩
abbrev S16384 : Shape := ⟨1, ![16384]⟩
abbrev S565x2048 : Shape := ⟨2, ![565, 2048]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x565, .f32⟩
  | .hbm, ⟨3, _⟩ => ⟨S2048x565, .f32⟩
  | .hbm, ⟨4, _⟩ => ⟨S8x565, .f32⟩
  | .hbm, ⟨5, _⟩ => ⟨S2048, .f32⟩
  | .hbm, ⟨6, _⟩ => ⟨S565x1, .f32⟩
  | .hbm, ⟨7, _⟩ => ⟨S1x8, .f32⟩
  | .hbm, ⟨8, _⟩ => ⟨S16384x565, .f32⟩
  | .hbm, ⟨9, _⟩ => ⟨S16384x1, .f32⟩
  | .hbm, ⟨10, _⟩ => ⟨S16384x8, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x8, .f32⟩
  | .hbm, ⟨24, _⟩ => ⟨S16384x8, .f32⟩
  | .hbm, ⟨25, _⟩ => ⟨S16384x2048, .f32⟩
  | .hbm, ⟨26, _⟩ => ⟨S16384x565, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x565, .f32⟩
  | .hbm, ⟨33, _⟩ => ⟨S565x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S16384x2048, .f32⟩
  | .hbm, ⟨41, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  bcast_S16384x1_S16384x2048_0_1 : S16384x1.BroadcastsInDim S16384x2048 (![0, 1] : Fin 2 → Fin S16384x2048.rank)
  transposes_S2048x565_S565x2048_1_0 : S2048x565.Transposes [1, 0] S565x2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x565_S16384x565_1_0_0_1_n_n_wf : DotDims.WF S16384x2048 S2048x565 S16384x565 [1] [0] [0] [1] [] []
  dot_S16384x565_S565x1_S16384x1_1_0_0_1_n_n_wf : DotDims.WF S16384x565 S565x1 S16384x1 [1] [0] [0] [1] [] []
  dot_S16384x1_S1x8_S16384x8_1_0_0_1_n_n_wf : DotDims.WF S16384x1 S1x8 S16384x8 [1] [0] [0] [1] [] []
  dot_S16384x2048_S2048x2048_S16384x2048_1_0_0_1_n_n_wf : DotDims.WF S16384x2048 S2048x2048 S16384x2048 [1] [0] [0] [1] [] []
  dot_S16384x8_S8x565_S16384x565_1_0_0_1_n_n_wf : DotDims.WF S16384x8 S8x565 S16384x565 [1] [0] [0] [1] [] []
  dot_S16384x565_S565x2048_S16384x2048_1_0_0_1_n_n_wf : DotDims.WF S16384x565 S565x2048 S16384x2048 [1] [0] [0] [1] [] []

variable [Facts₀]

def dot_S16384x2048_S2048x565_S16384x565_1_0_0_1_n_n : DotDims S16384x2048 S2048x565 S16384x565 where
  lhsContracting := [1]
  rhsContracting := [0]
  lhsNonContracting := [0]
  rhsNonContracting := [1]
  lhsBatch := []
  rhsBatch := []
  wf := dot_S16384x2048_S2048x565_S16384x565_1_0_0_1_n_n_wf
def dot_S16384x565_S565x1_S16384x1_1_0_0_1_n_n : DotDims S16384x565 S565x1 S16384x1 where
  lhsContracting := [1]
  rhsContracting := [0]
  lhsNonContracting := [0]
  rhsNonContracting := [1]
  lhsBatch := []
  rhsBatch := []
  wf := dot_S16384x565_S565x1_S16384x1_1_0_0_1_n_n_wf
def dot_S16384x1_S1x8_S16384x8_1_0_0_1_n_n : DotDims S16384x1 S1x8 S16384x8 where
  lhsContracting := [1]
  rhsContracting := [0]
  lhsNonContracting := [0]
  rhsNonContracting := [1]
  lhsBatch := []
  rhsBatch := []
  wf := dot_S16384x1_S1x8_S16384x8_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x8_S8x565_S16384x565_1_0_0_1_n_n : DotDims S16384x8 S8x565 S16384x565 where
  lhsContracting := [1]
  rhsContracting := [0]
  lhsNonContracting := [0]
  rhsNonContracting := [1]
  lhsBatch := []
  rhsBatch := []
  wf := dot_S16384x8_S8x565_S16384x565_1_0_0_1_n_n_wf
def dot_S16384x565_S565x2048_S16384x2048_1_0_0_1_n_n : DotDims S16384x565 S565x2048 S16384x2048 where
  lhsContracting := [1]
  rhsContracting := [0]
  lhsNonContracting := [0]
  rhsNonContracting := [1]
  lhsBatch := []
  rhsBatch := []
  wf := dot_S16384x565_S565x2048_S16384x2048_1_0_0_1_n_n_wf

class Facts : Prop extends Facts₀ where

variable [Facts]
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.RowSpec.lean ====
/-
  One row of the gated low-rank layer, as a function on the extended reals.

  A row x of D entries is projected onto K directions (the columns of U): p_j = Σ_d x_d · U_{d,j}. The projections are
  scored against a vector w1, s = Σ_j p_j · w1_j, and the score is spread over E experts by a second vector, giving the
  logits s · w2_e. The gate g is the softmax of the logits: with M the largest logit (never below −∞, the start value
  of the maximum), g_e = exp(s · w2_e − M) / Σ_k exp(s · w2_k − M). The row's output at column c is

      ( (Σ_d x_d · W_{d,c}) · Σ_e g_e  +  Σ_j (p_j · Σ_e g_e · lam_{e,j}) · Vt_{j,c} ) · (1 + v_c).

  Padding the K directions with b further directions whose column of U is zero changes nothing: the extra projections
  are sums of products with zero, hence zero, so they add zero to the score and their terms of the last sum are
  products with zero — whatever the padded entries of w1, lam and Vt are. Zero annihilates every extended real, the
  infinities included, so no entry needs to be finite.
-/
import Idealize.ShloMosaic.PureOps.Ideal
import Idealize.ShloMosaic.Lib.ValueIdx
import proofs.«138142_j10642928959975_2_alg».proof.Proof.LibMaxReduce

noncomputable section

namespace Cert.RowSpec

open Idealize.ShloMosaic Idealize.ShloMosaic.ValueIdx Cert.LibMaxReduce

/-- The value of the single-precision word of −∞: the start value of the softmax's maximum. -/
abbrev negInf : EReal := Ideal.ofBits .f32 0xFF800000#32
/-- The value of the single-precision word of 1.0. -/
abbrev one : EReal := Ideal.ofBits .f32 0x3F800000#32

variable {D K E C : ℕ}

/-- The largest logit, joined once more with the start value −∞. -/
def logitMax (s : EReal) (w2 : Fin E → EReal) : EReal := max negInf (foldMax negInf fun k => s * w2 k)

/-- The softmax weight of expert `e` when the logits are `s · w2`. -/
def gateW (s : EReal) (w2 : Fin E → EReal) (e : Fin E) : EReal :=
  Ideal.div (Ideal.exp (s * w2 e - logitMax s w2)) (∑ k : Fin E, Ideal.exp (s * w2 k - logitMax s w2))

/-- The row's projection onto direction `j`. -/
def proj (xr : Fin D → EReal) (U : Fin D → Fin K → EReal) (j : Fin K) : EReal := ∑ d, xr d * U d j

/-- The row's score: its projections against `w1`. -/
def score (xr : Fin D → EReal) (U : Fin D → Fin K → EReal) (w1 : Fin K → EReal) : EReal := ∑ j, proj xr U j * w1 j

/-- The gate-weighted scale of direction `j`. -/
def coef (s : EReal) (w2 : Fin E → EReal) (lam : Fin E → Fin K → EReal) (j : Fin K) : EReal := ∑ e, gateW s w2 e * lam e j

/-- The row's output at column `c`. -/
def rowOut (xr : Fin D → EReal) (W : Fin D → Fin C → EReal) (U : Fin D → Fin K → EReal) (Vt : Fin K → Fin C → EReal)
    (lam : Fin E → Fin K → EReal) (w1 : Fin K → EReal) (w2 : Fin E → EReal) (vv : Fin C → EReal) (c : Fin C) : EReal :=
  ((∑ d, xr d * W d c) * (∑ e, gateW (score xr U w1) w2 e)
      + ∑ j, (proj xr U j * coef (score xr U w1) w2 lam j) * Vt j c) * (one + vv c)

/-- A sum over `a + b` terms whose last `b` terms vanish is the sum of the first `a`. -/
theorem sum_front {a b : ℕ} (f : Fin (a + b) → EReal) (h0 : ∀ j : Fin b, f (Fin.natAdd a j) = 0) :
    ∑ j, f j = ∑ j : Fin a, f (Fin.castAdd b j) := by
  rw [Fin.sum_univ_add, Finset.sum_eq_zero (fun j _ => h0 j), add_zero]

/-- Directions padded onto `U` with zero columns do not change the row's output. -/
theorem rowOut_pad {a b : ℕ} (xr : Fin D → EReal) (W : Fin D → Fin C → EReal)
    (U : Fin D → Fin a → EReal) (Vt : Fin a → Fin C → EReal) (lam : Fin E → Fin a → EReal) (w1 : Fin a → EReal)
    (U' : Fin D → Fin (a + b) → EReal) (Vt' : Fin (a + b) → Fin C → EReal) (lam' : Fin E → Fin (a + b) → EReal)
    (w1' : Fin (a + b) → EReal) (w2 : Fin E → EReal) (vv : Fin C → EReal)
    (hU : ∀ d j, U' d (Fin.castAdd b j) = U d j) (hU0 : ∀ d j, U' d (Fin.natAdd a j) = 0)
    (hV : ∀ j c, Vt' (Fin.castAdd b j) c = Vt j c) (hL : ∀ e j, lam' e (Fin.castAdd b j) = lam e j)
    (hw : ∀ j, w1' (Fin.castAdd b j) = w1 j) (c : Fin C) :
    rowOut xr W U' Vt' lam' w1' w2 vv c = rowOut xr W U Vt lam w1 w2 vv c := by
  have hp : ∀ j, proj xr U' (Fin.castAdd b j) = proj xr U j := fun j =>
    Finset.sum_congr rfl fun d _ => by rw [hU]
  have hp0 : ∀ j, proj xr U' (Fin.natAdd a j) = 0 := fun j =>
    Finset.sum_eq_zero fun d _ => by rw [hU0, mul_zero]
  have hs : score xr U' w1' = score xr U w1 := by
    unfold score
    rw [sum_front _ (fun j => by rw [hp0, zero_mul])]
    exact Finset.sum_congr rfl fun j _ => by rw [hp, hw]
  have hc : ∀ j, coef (score xr U w1) w2 lam' (Fin.castAdd b j) = coef (score xr U w1) w2 lam j := fun j =>
    Finset.sum_congr rfl fun e _ => by rw [hL]
  unfold rowOut
  rw [hs, sum_front _ (fun j => by rw [hp0, zero_mul, zero_mul])]
  refine congrArg (fun z : EReal => ((∑ d, xr d * W d c) * (∑ e, gateW (score xr U w1) w2 e) + z) * (one + vv c)) ?_
  exact Finset.sum_congr rfl fun j _ => by rw [hp, hc, hV]

end Cert.RowSpec

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«138142_j10642928959975_2_alg».proof.Proof.LibKeepdims
import proofs.«138142_j10642928959975_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibSoftmaxGuarded.lean ====
/-
  A softmax over the LAST axis of an `[a, b]` block whose row maximum is joined once more with a splat of the
  maximum's start value before it is subtracted — the form a numerically guarded softmax takes on a vector unit:

      M_r = max(start, running maximum of row r from start),
      X(r, m) = exp(S(r, m) − M_r),      result(r, m) = X(r, m) / Σ_k X(r, k).

  The row statistics are reduced to a vector `[a]`, kept as a column `[a, 1]` and spread back over the `b` columns;
  read at an entry `(r, m)` each is the statistic of row `r`.
-/
import proofs.«138142_j10642928959975_2_alg».proof.Proof.LibSoftmaxBlock

noncomputable section

namespace Cert.LibSoftmaxGuarded

open Idealize.ShloMosaic Idealize.ShloMosaic.ValueIdx Cert.LibMaxReduce

/-- The guarded row maximum kept as a column and spread over the columns, read at `(r, m)`. -/
theorem guardedRowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩
        (maximumf (broadcast ⟨1, ![a]⟩ (Scalar.ofBits (F := Ideal) .f32 acc)) (multiReduction .maximumf [1] ⟨1, ![a]⟩ S acc hr hφ hacc)) hc) hb (ix2 r m)
      = max (Ideal.ofBits .f32 acc) (foldMax (Ideal.ofBits .f32 acc) (fun k : Fin b => S (ix2 r k))) :=
  (Cert.LibKeepdims.broadcastTo_a1_ab_apply _ hb r m (0 : Fin 1)).trans
    ((Cert.LibKeepdims.shapeCast_a_a1_apply _ hc r (0 : Fin 1)).trans
      (congrArg (max (Ideal.ofBits .f32 acc)) (multiReduction_maximumf_lastAxis_apply S acc hr hφ hacc r)))

/-- The guarded softmax read at `(r, m)`: the exponential of the entry's distance below the guarded row maximum over the
    sum of those exponentials along the row. -/
theorem softmaxGuarded_apply {a b : ℕ} (S : FVec Ideal ⟨2, ![a, b]⟩ .f32) (acc acc0 : BitVec 32)
    (hr : (⟨2, ![a, b]⟩ : Shape).Reduces [1] ⟨1, ![a]⟩) (hφ : FKind.Formats .f32) (hacc : acc = FKind.maximumf.neutral .f32 hφ)
    (hφ0 : FKind.Formats .f32) (hacc0 : acc0 = FKind.add.neutral .f32 hφ0)
    (hc : (⟨1, ![a]⟩ : Shape).ShapeCasts ⟨2, ![a, 1]⟩) (hb : (⟨2, ![a, 1]⟩ : Shape).Broadcasts ⟨2, ![a, b]⟩)
    (r : Fin a) (m : Fin b) :
    divf (exp (subf S (broadcastTo ⟨2, ![a, b]⟩ (shapeCast ⟨2, ![a, 1]⟩
          (maximumf (broadcast ⟨1, ![a]⟩ (Scalar.ofBits (F := Ideal) .f32 acc)) (multiReduction .maximumf [1] ⟨1, ![a]⟩ S acc hr hφ hacc)) hc) hb)))
        (broadcastTo ⟨2, ![a, b]⟩ (shapeCast ⟨2, ![a, 1]⟩ (multiReduction .add [1] ⟨1, ![a]⟩
          (exp (subf S (broadcastTo ⟨2, ![a, b]⟩ (shapeCast ⟨2, ![a, 1]⟩
            (maximumf (broadcast ⟨1, ![a]⟩ (Scalar.ofBits (F := Ideal) .f32 acc)) (multiReduction .maximumf [1] ⟨1, ![a]⟩ S acc hr hφ hacc)) hc) hb)))
          acc0 hr hφ0 hacc0) hc) hb) (ix2 r m)
      = Ideal.div (Ideal.exp (S (ix2 r m) - max (Ideal.ofBits .f32 acc) (foldMax (Ideal.ofBits .f32 acc) (fun k : Fin b => S (ix2 r k)))))
          (∑ k : Fin b, Ideal.exp (S (ix2 r k) - max (Ideal.ofBits .f32 acc) (foldMax (Ideal.ofBits .f32 acc) (fun k' : Fin b => S (ix2 r k'))))) := by
  have hX : ∀ k : Fin b,
      exp (subf S (broadcastTo ⟨2, ![a, b]⟩ (shapeCast ⟨2, ![a, 1]⟩
          (maximumf (broadcast ⟨1, ![a]⟩ (Scalar.ofBits (F := Ideal) .f32 acc)) (multiReduction .maximumf [1] ⟨1, ![a]⟩ S acc hr hφ hacc)) hc) hb)) (ix2 r k)
        = Ideal.exp (S (ix2 r k) - max (Ideal.ofBits .f32 acc) (foldMax (Ideal.ofBits .f32 acc) (fun k' : Fin b => S (ix2 r k')))) :=
    fun k => congrArg (fun z : EReal => Ideal.exp (S (ix2 r k) - z)) (guardedRowMax_spread_apply S acc hr hφ hacc hc hb r k)
  refine (Cert.LibSoftmaxBlock.overRowSum_apply _ acc0 hr hφ0 hacc0 hc hb r m).trans ?_
  rw [hX m]
  exact congrArg (Ideal.div _) (Finset.sum_congr rfl fun k _ => hX k)

end Cert.LibSoftmaxGuarded

end
-- ==== Proof.KernelRow.lean ====
/-
  What one grid point of the kernel leaves in its output block, entry by entry, at the ideal values.

  The body works on a block of 256 rows of x and on the whole (zero-padded, 768-direction) weights. Every row p of the
  block goes through the same computation: its projections onto the 768 directions (a matrix product), its score
  against the padded w1 (a product with a broadcast row, summed along the row), the logits (the score column times the
  row w2), the guarded softmax of the logits along the 8 experts, the gate-weighted scales of the directions (a matrix
  product with the padded lam), the sum of the gate, the low-rank term (projections times scales, a matrix product
  with the padded Vᵀ), and finally (base · gate sum + low-rank term) · (1 + v). Read at (p, c) that is the row
  function `RowSpec.rowOut` of row p of the block and the loaded weights, at column c.
-/
import proofs.«138142_j10642928959975_2_alg».proof.Proof.Gen.KernelIdeal.Value
import proofs.«138142_j10642928959975_2_alg».proof.Proof.RowSpec
import proofs.«138142_j10642928959975_2_alg».proof.Proof.LibPlainMatmul
import proofs.«138142_j10642928959975_2_alg».proof.Proof.LibRowBroadcast
import proofs.«138142_j10642928959975_2_alg».proof.Proof.LibSoftmaxGuarded
import Idealize.ShloMosaic.Lib.Pipeline.Value

noncomputable section

namespace Cert.KernelRow

open Cert.KernelIdeal Cert.KernelIdeal.Gen Idealize.ShloMosaic Idealize.ShloMosaic.ValueIdx Cert.RowSpec Cert.LibMaxReduce

variable (P0 : FVec Ideal S256x2048 .f32) (P1 : FVec Ideal S2048x2048 .f32) (P2 : FVec Ideal S2048x768 .f32)
  (P3 : FVec Ideal S1x768 .f32) (P4 : FVec Ideal S1x8 .f32) (P5 : FVec Ideal S8x768 .f32) (P6 : FVec Ideal S768x2048 .f32)
  (P7 : FVec Ideal S1x2048 .f32)

/-- Row `p` of the block. -/
abbrev rowP (p : Fin 256) : Fin 2048 → EReal := fun d => P0 (ix2 p d)
/-- The padded directions, as a function of row and column. -/
abbrev matU : Fin 2048 → Fin 768 → EReal := fun d j => P2 (ix2 d j)
/-- The padded score vector. -/
abbrev vecW1 : Fin 768 → EReal := fun j => P3 (ix2 (0 : Fin 1) j)
/-- The expert vector. -/
abbrev vecW2 : Fin 8 → EReal := fun e => P4 (ix2 (0 : Fin 1) e)
/-- The padded expert scales. -/
abbrev matLam : Fin 8 → Fin 768 → EReal := fun e j => P5 (ix2 e j)

/-- The projections: the block times the padded directions, read at (p, j). -/
theorem proj_apply (p : Fin 256) (j : Fin 768) :
    k0_pay2 (F := Ideal) P0 P2 (ix2 p j) = proj (rowP P0 p) (matU P2) j := by
  show matmul dot_S256x2048_S2048x768_S256x768_1_0_0_1_n_n (some .fp32) P0 (shapeCast S2048x768 P2 shapeCasts_S2048x768_S2048x768)
    (constant S256x768 .f32 0x00000000#32) (ix2 p j) = _
  rw [shapeCast_self]
  exact matmul_plain_zero_apply 256 2048 768 (some .fp32) P0 P2 p j

/-- The scores of the block's rows, a vector of 256 entries. -/
abbrev scoreVec : FVec Ideal S256 .f32 :=
  multiReduction (F := Ideal) .add [1] S256 (mulf (k0_pay2 (F := Ideal) P0 P2) (broadcastTo S256x768 (shapeCast S1x768 P3 shapeCasts_S1x768_S1x768) broadcasts_S1x768_S256x768))
    0x00000000#32 reduces_S256x768_S256 (.inl rfl) rfl

/-- Row `p`'s score. -/
theorem score_apply (p : Fin 256) :
    scoreVec P0 P2 P3 (ix1 p) = score (rowP P0 p) (matU P2) (vecW1 P3) := by
  refine (Cert.LibKeepdims.multiReduction_add_lastAxis_apply (a := 256) (b := 768) _ _ _ _ _ p).trans ?_
  refine Finset.sum_congr rfl fun j _ => ?_
  show k0_pay2 (F := Ideal) P0 P2 (ix2 p j) * broadcastTo S256x768 (shapeCast S1x768 P3 shapeCasts_S1x768_S1x768) broadcasts_S1x768_S256x768 (ix2 p j) = _
  rw [proj_apply, Cert.LibRowBroadcast.broadcastTo_1b_ab_apply _ _ p j (0 : Fin 1), shapeCast_self]

/-- The logits of the block: the score column times the expert row. -/
abbrev logits : FVec Ideal S256x8 .f32 :=
  mulf (broadcastTo S256x8 (shapeCast S256x1 (scoreVec P0 P2 P3) shapeCasts_S256_S256x1) broadcasts_S256x1_S256x8)
    (broadcastTo S256x8 P4 broadcasts_S1x8_S256x8)

/-- Row `p`'s logit of expert `k`. -/
theorem logits_apply (p : Fin 256) (k : Fin 8) :
    logits P0 P2 P3 P4 (ix2 p k) = score (rowP P0 p) (matU P2) (vecW1 P3) * vecW2 P4 k := by
  show broadcastTo S256x8 (shapeCast S256x1 (scoreVec P0 P2 P3) shapeCasts_S256_S256x1) broadcasts_S256x1_S256x8 (ix2 p k)
    * broadcastTo S256x8 P4 broadcasts_S1x8_S256x8 (ix2 p k) = _
  rw [Cert.LibKeepdims.broadcastTo_a1_ab_apply _ _ p k (0 : Fin 1), Cert.LibKeepdims.shapeCast_a_a1_apply _ _ p (0 : Fin 1),
    Cert.LibRowBroadcast.broadcastTo_1b_ab_apply _ _ p k (0 : Fin 1), score_apply]

/-- The gate: the guarded softmax of the logits along the experts, read at (p, e). -/
theorem gate_apply (p : Fin 256) (e : Fin 8) :
    k0_pay3 (F := Ideal) P0 P2 P3 P4 (ix2 p e) = gateW (score (rowP P0 p) (matU P2) (vecW1 P3)) (vecW2 P4) e := by
  refine (Cert.LibSoftmaxGuarded.softmaxGuarded_apply (a := 256) (b := 8) (logits P0 P2 P3 P4) 0xFF800000#32 0x00000000#32
    reduces_S256x8_S256 (.inl rfl) rfl (.inl rfl) rfl shapeCasts_S256_S256x1 broadcasts_S256x1_S256x8 p e).trans ?_
  unfold gateW logitMax
  simp only [logits_apply]

/-- The sum of the gate along the experts, a vector of 256 entries, read at `p`. -/
theorem gateSum_apply (p : Fin 256) :
    multiReduction (F := Ideal) .add [1] S256 (k0_pay3 (F := Ideal) P0 P2 P3 P4) 0x00000000#32 reduces_S256x8_S256 (.inl rfl) rfl (ix1 p)
      = ∑ e : Fin 8, gateW (score (rowP P0 p) (matU P2) (vecW1 P3)) (vecW2 P4) e :=
  (Cert.LibKeepdims.multiReduction_add_lastAxis_apply (a := 256) (b := 8) _ _ _ _ _ p).trans
    (Finset.sum_congr rfl fun e _ => gate_apply P0 P2 P3 P4 p e)

/-- The gate-weighted scales of the directions: the gate times the padded lam, read at (p, j). -/
theorem coef_apply (p : Fin 256) (j : Fin 768) :
    matmul dot_S256x8_S8x768_S256x768_1_0_0_1_n_n (some .fp32) (k0_pay3 (F := Ideal) P0 P2 P3 P4) (shapeCast S8x768 P5 shapeCasts_S8x768_S8x768)
        (constant S256x768 .f32 0x00000000#32) (ix2 p j)
      = coef (score (rowP P0 p) (matU P2) (vecW1 P3)) (vecW2 P4) (matLam P5) j := by
  rw [shapeCast_self]
  refine (matmul_plain_zero_apply 256 8 768 (some .fp32) (k0_pay3 (F := Ideal) P0 P2 P3 P4) P5 p j).trans ?_
  exact Finset.sum_congr rfl fun e _ => by rw [gate_apply]

/-- The low-rank term: (projections · scales) times the padded Vᵀ, read at (p, c). -/
theorem lowRank_apply (p : Fin 256) (c : Fin 2048) :
    k0_pay6 (F := Ideal) P0 P2 P3 P4 P5 P6 (ix2 p c)
      = ∑ j : Fin 768, (proj (rowP P0 p) (matU P2) j * coef (score (rowP P0 p) (matU P2) (vecW1 P3)) (vecW2 P4) (matLam P5) j) * P6 (ix2 j c) := by
  show matmul dot_S256x768_S768x2048_S256x2048_1_0_0_1_n_n (some .fp32)
    (mulf (k0_pay2 (F := Ideal) P0 P2) (matmul dot_S256x8_S8x768_S256x768_1_0_0_1_n_n (some .fp32) (k0_pay3 (F := Ideal) P0 P2 P3 P4) (shapeCast S8x768 P5 shapeCasts_S8x768_S8x768)
        (constant S256x768 .f32 0x00000000#32)))
    (shapeCast S768x2048 P6 shapeCasts_S768x2048_S768x2048) (constant S256x2048 .f32 0x00000000#32) (ix2 p c) = _
  rw [shapeCast_self (s := S768x2048)]
  refine (matmul_plain_zero_apply 256 768 2048 (some .fp32) _ P6 p c).trans ?_
  refine Finset.sum_congr rfl fun j _ => ?_
  show k0_pay2 (F := Ideal) P0 P2 (ix2 p j) * matmul dot_S256x8_S8x768_S256x768_1_0_0_1_n_n (some .fp32) (k0_pay3 (F := Ideal) P0 P2 P3 P4) (shapeCast S8x768 P5 shapeCasts_S8x768_S8x768)
        (constant S256x768 .f32 0x00000000#32) (ix2 p j) * P6 (ix2 j c) = _
  rw [proj_apply, coef_apply]

/-- The dense term: the block times W, read at (p, c). -/
theorem base_apply (p : Fin 256) (c : Fin 2048) :
    k0_pay4 (F := Ideal) P0 P1 (ix2 p c) = ∑ d : Fin 2048, P0 (ix2 p d) * P1 (ix2 d c) :=
  matmul_plain_zero_apply 256 2048 2048 (some .fp32) P0 P1 p c

/-- THE BLOCK the body leaves, read at (p, c): the row function of row `p` and the loaded weights, at column `c`. -/
theorem block_apply (p : Fin 256) (c : Fin 2048) :
    Cert.KernelIdeal.Value.E8 (F := Ideal) P0 P1 P2 P3 P4 P5 P6 P7 (ix2 p c)
      = rowOut (rowP P0 p) (fun d c => P1 (ix2 d c)) (matU P2) (fun j c => P6 (ix2 j c)) (matLam P5) (vecW1 P3) (vecW2 P4)
          (fun c => P7 (ix2 (0 : Fin 1) c)) c := by
  show (k0_pay4 (F := Ideal) P0 P1 (Cert.KernelIdeal.Value.ix8_0 (ix2 p c))
        * (multiReduction (F := Ideal) .add [1] S256 (k0_pay3 (F := Ideal) P0 P2 P3 P4) 0x00000000#32 reduces_S256x8_S256 (.inl rfl) rfl) (Cert.KernelIdeal.Value.ix8_1 (ix2 p c))
      + k0_pay6 (F := Ideal) P0 P2 P3 P4 P5 P6 (Cert.KernelIdeal.Value.ix8_2 (ix2 p c)))
      * (Ideal.ofBits .f32 0x3F800000#32 + P7 (Cert.KernelIdeal.Value.ix8_3 (ix2 p c))) = _
  have i0 : Cert.KernelIdeal.Value.ix8_0 (ix2 p c) = ix2 p c := funext fun a => match a with | ⟨0, _⟩ => rfl | ⟨1, _⟩ => rfl
  have i1 : Cert.KernelIdeal.Value.ix8_1 (ix2 p c) = ix1 p := funext fun a => match a with | ⟨0, _⟩ => rfl
  have i2 : Cert.KernelIdeal.Value.ix8_2 (ix2 p c) = ix2 p c := funext fun a => match a with | ⟨0, _⟩ => rfl | ⟨1, _⟩ => rfl
  have i3 : Cert.KernelIdeal.Value.ix8_3 (ix2 p c) = ix2 (0 : Fin 1) c := funext fun a => match a with | ⟨0, _⟩ => rfl | ⟨1, _⟩ => rfl
  rw [i0, i1, i2, i3, base_apply, gateSum_apply, lowRank_apply]
  rfl

end Cert.KernelRow

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«138142_j10642928959975_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.Staged.lean ====
/-
  What the kernel's windows find in their arrays when the region is entered, entry by entry.

  Five of the eight input windows stage arrays the host prepared from the arguments:
  • U padded with 203 zero COLUMNS (to 768 directions);
  • the transpose of V padded with 203 zero ROWS;
  • lam padded with 203 zero columns;
  • the transpose of the one-column w1 — a row — padded with 203 zero columns;
  • v re-laid as a one-row matrix.
  The padding value is the integer 0 converted to a float: the real number 0. Inside the operand a padded array reads
  the operand (through the transpose where there is one); in the padding it reads 0.
-/
import proofs.«138142_j10642928959975_2_alg».proof.Proof.Gen.KernelIdeal.Value
import proofs.«138142_j10642928959975_2_alg».proof.Proof.LibPlainDot
import Idealize.ShloMosaic.Lib.StableHlo.Run
import Idealize.ShloMosaic.Lib.KernelVsHost
import Idealize.ShloMosaic.Lib.Pipeline.Value

noncomputable section

namespace Cert.Staged

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The padding value: the integer zero converted to a float. -/
abbrev padVal : S_.Idx → EReal := sitofp (F := Ideal) .f32 (constantI S_ 32 0#32)

/-- It is the real number zero. -/
theorem padVal_eq : padVal (Shape.Idx.first h_S_) = 0 := by
  show (((0#32 : BitVec 32).toInt : ℝ) : EReal) = 0
  simp

/-- U as launched. -/
abbrev argU (c : Dev nD) : S2048x565.Idx → EReal := m ((c : Thread nD τ).loc main_arg2)
/-- V as launched. -/
abbrev argV (c : Dev nD) : S2048x565.Idx → EReal := m ((c : Thread nD τ).loc main_arg3)
/-- lam as launched. -/
abbrev argLam (c : Dev nD) : S8x565.Idx → EReal := m ((c : Thread nD τ).loc main_arg4)
/-- v as launched. -/
abbrev argVv (c : Dev nD) : S2048.Idx → EReal := m ((c : Thread nD τ).loc main_arg5)
/-- w1 as launched. -/
abbrev argW1 (c : Dev nD) : S565x1.Idx → EReal := m ((c : Thread nD τ).loc main_arg6)

/-- The padded directions are the host's pad of U. -/
theorem staged_U (c : Dev nD) : (V m c main_v0 : S2048x768.Idx → EReal)
    = pad S2048x768 ![0, 0] ![0, 203] ![0, 0] (argU m c) padVal pads_S2048x565_S2048x768_000_02030 h_S_ := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The padded Vᵀ is the host's pad of the transpose of V. -/
theorem staged_Vt (c : Dev nD) : (V m c main_v2 : S768x2048.Idx → EReal)
    = pad S768x2048 ![0, 0] ![203, 0] ![0, 0] (transpose S565x2048 [1, 0] (argV m c) transposes_S2048x565_S565x2048_1_0) padVal
        pads_S565x2048_S768x2048_02030_000 h_S_ := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The padded lam is the host's pad of lam. -/
theorem staged_Lam (c : Dev nD) : (V m c main_v3 : S8x768.Idx → EReal)
    = pad S8x768 ![0, 0] ![0, 203] ![0, 0] (argLam m c) padVal pads_S8x565_S8x768_000_02030 h_S_ := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The padded w1 row is the host's pad of the transpose of w1. -/
theorem staged_W1 (c : Dev nD) : (V m c main_v5 : S1x768.Idx → EReal)
    = pad S1x768 ![0, 0] ![0, 203] ![0, 0] (transpose S1x565 [1, 0] (argW1 m c) transposes_S565x1_S1x565_1_0) padVal
        pads_S1x565_S1x768_000_02030 h_S_ := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- The one-row v is the host's reshape of v. -/
theorem staged_Vv (c : Dev nD) : (V m c main_v6 : S1x2048.Idx → EReal)
    = shapeCast S1x2048 (argVv m c) shapeCasts_S2048_S1x2048 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results
  rfl

/-- Inside U the padded directions read U. -/
theorem U_inside (c : Dev nD) (d : Fin 2048) (j : Fin 565) :
    (V m c main_v0 : S2048x768.Idx → EReal) (ix2 d (Fin.castAdd 203 j)) = argU m c (ix2 d j) := by
  rw [staged_U]
  exact pad_apply_of_inside _ _ _ _ _ _ _ _ (ix2 d j) (fun a => match a with
    | ⟨0, _⟩ => by show d.val = 0 + d.val * (0 + 1); omega
    | ⟨1, _⟩ => by show j.val = 0 + j.val * (0 + 1); omega)

/-- In the padding the padded directions read zero. -/
theorem U_outside (c : Dev nD) (d : Fin 2048) (j : Fin 203) :
    (V m c main_v0 : S2048x768.Idx → EReal) (ix2 d (Fin.natAdd 565 j)) = (0 : EReal) := by
  rw [staged_U, ← padVal_eq]
  exact pad_apply_of_not_inside _ _ _ _ _ _ _ _ (1 : Fin 2) (fun h => by
    have h2 : (565 + j.val - 0) / 1 < 565 := h.2.2
    omega)

/-- Inside Vᵀ the padded array reads V transposed. -/
theorem Vt_inside (c : Dev nD) (j : Fin 565) (q : Fin 2048) :
    (V m c main_v2 : S768x2048.Idx → EReal) (ix2 (Fin.castAdd 203 j) q) = argV m c (ix2 q j) := by
  rw [staged_Vt]
  refine (pad_apply_of_inside _ _ _ _ _ _ _ _ (ix2 j q) (fun a => match a with
    | ⟨0, _⟩ => by show j.val = 0 + j.val * (0 + 1); omega
    | ⟨1, _⟩ => by show q.val = 0 + q.val * (0 + 1); omega)).trans ?_
  exact Cert.LibPlainDot.transpose_swap_apply 2048 565 (argV m c) transposes_S2048x565_S565x2048_1_0 j q

/-- Inside lam the padded array reads lam. -/
theorem Lam_inside (c : Dev nD) (e : Fin 8) (j : Fin 565) :
    (V m c main_v3 : S8x768.Idx → EReal) (ix2 e (Fin.castAdd 203 j)) = argLam m c (ix2 e j) := by
  rw [staged_Lam]
  exact pad_apply_of_inside _ _ _ _ _ _ _ _ (ix2 e j) (fun a => match a with
    | ⟨0, _⟩ => by show e.val = 0 + e.val * (0 + 1); omega
    | ⟨1, _⟩ => by show j.val = 0 + j.val * (0 + 1); omega)

/-- Inside w1 the padded row reads w1. -/
theorem W1_inside (c : Dev nD) (j : Fin 565) :
    (V m c main_v5 : S1x768.Idx → EReal) (ix2 (0 : Fin 1) (Fin.castAdd 203 j)) = argW1 m c (ix2 j (0 : Fin 1)) := by
  rw [staged_W1]
  refine (pad_apply_of_inside _ _ _ _ _ _ _ _ (ix2 (0 : Fin 1) j) (fun a => match a with
    | ⟨0, _⟩ => by show 0 = 0 + 0 * (0 + 1); omega
    | ⟨1, _⟩ => by show j.val = 0 + j.val * (0 + 1); omega)).trans ?_
  exact Cert.LibPlainDot.transpose_swap_apply 565 1 (argW1 m c) transposes_S565x1_S1x565_1_0 (0 : Fin 1) j

/-- The one-row v reads v. -/
theorem Vv_apply (c : Dev nD) (q : Fin 2048) :
    (V m c main_v6 : S1x2048.Idx → EReal) (ix2 (0 : Fin 1) q) = argVv m c (ix1 q) := by
  rw [staged_Vv]
  exact shapeCast_apply _ _ _ _ (by
    rw [Shape.rowMajor_val_one, Shape.rowMajor_val_two]
    show q.val = 0 * 2048 + q.val
    omega)

end Cert.Staged

end
-- ==== Proof.Spec.lean ====
/-
  The layer's result as ONE function of the eight argument arrays, index by index: entry (r, c) of the result is the
  row function `RowSpec.rowOut` of row r of x and of the weights read by coordinates — U by (d, j), V TRANSPOSED
  (direction j, column c reads V at (c, j)), lam by (e, j), the one-column w1 by (j, 0), the one-row w2 by (0, e),
  v by c — at column c.
-/
import proofs.«138142_j10642928959975_2_alg».proof.Proof.RowSpec

noncomputable section

namespace Cert.Spec

open Idealize.ShloMosaic Idealize.ShloMosaic.ValueIdx Cert.RowSpec

/-- The result array as a function of the argument arrays. -/
def G (x0 : (⟨2, ![16384, 2048]⟩ : Shape).Idx → EReal) (x1 : (⟨2, ![2048, 2048]⟩ : Shape).Idx → EReal)
    (x2 x3 : (⟨2, ![2048, 565]⟩ : Shape).Idx → EReal) (x4 : (⟨2, ![8, 565]⟩ : Shape).Idx → EReal)
    (x5 : (⟨1, ![2048]⟩ : Shape).Idx → EReal) (x6 : (⟨2, ![565, 1]⟩ : Shape).Idx → EReal)
    (x7 : (⟨2, ![1, 8]⟩ : Shape).Idx → EReal) : (⟨2, ![16384, 2048]⟩ : Shape).Idx → EReal :=
  fun i => rowOut (fun d : Fin 2048 => x0 (ix2 (i 0 : Fin 16384) d)) (fun (d : Fin 2048) (c : Fin 2048) => x1 (ix2 d c))
    (fun (d : Fin 2048) (j : Fin 565) => x2 (ix2 d j)) (fun (j : Fin 565) (c : Fin 2048) => x3 (ix2 c j))
    (fun (e : Fin 8) (j : Fin 565) => x4 (ix2 e j)) (fun j : Fin 565 => x6 (ix2 j (0 : Fin 1)))
    (fun e : Fin 8 => x7 (ix2 (0 : Fin 1) e)) (fun c : Fin 2048 => x5 (ix1 c)) (i 1 : Fin 2048)

end Cert.Spec

end
-- ==== Proof.KernelValue.lean ====
/-
  The kernel's result array after the run is the specification `Spec.G` of the argument arrays.

  The grid has 64 points; point t works on rows 256·t … 256·t + 255 of x and writes the same rows of the result, while
  every other window stages its whole array at every point. So at point t the body's block, read at (p, c), is the row
  function of row 256·t + p of x and of the PADDED weights; the padding adds directions whose column of U is zero, which
  the row function ignores (`RowSpec.rowOut_pad`); and the padded arrays read the arguments inside the operands
  (`Staged`). Hence point t writes back block t of `G`. The 64 blocks cover the 16384 rows (row r lies in block r / 256),
  so the whole array ends equal to `G`.
-/
import proofs.«138142_j10642928959975_2_alg».proof.Proof.Gen.KernelIdeal.Value
import proofs.«138142_j10642928959975_2_alg».proof.Proof.KernelRow
import proofs.«138142_j10642928959975_2_alg».proof.Proof.Staged
import proofs.«138142_j10642928959975_2_alg».proof.Proof.Spec

set_option maxRecDepth 16384

noncomputable section

namespace Cert.KernelValue

open Cert.KernelIdeal Cert.KernelIdeal.Gen Idealize.ShloMosaic Idealize.ShloMosaic.TcCoe Idealize.SL.Sem Idealize.ShloMosaic.ValueIdx
  Cert.RowSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the x window moves with the output window along the rows,
    every other window stays at block (0, 0), and the output's block row is the point's number, at most 63. -/
theorem idx_facts : ∀ t : Fin cfg0.N, win0_0.index t (0 : Fin 2) = win0_8.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 63 :=
  (by decide +kernel : ∀ t : Fin grid0.N, _)

/-- Every block row of the result is some point's. -/
theorem idx_onto : ∀ q0 : Fin 64, ∃ t : Fin cfg0.N, win0_8.index t = ![q0.val, 0] :=
  (by decide +kernel : ∀ q0 : Fin 64, ∃ t : Fin grid0.N, win0_8.index t = ![q0.val, 0])

/-- Window 0's block at point `t` holds the rows of x from `256 · (block row)` on. -/
theorem blk0_apply (c : Dev nD) (t : Fin cfg0.N) (p : Fin 256) (d : Fin 2048) (r : Fin 16384)
    (hr : r.val = win0_8.index t (0 : Fin 2) * 256 + p.val) :
    (iblk m c 0 t : S256x2048.Idx → EReal) (ix2 p d) = (m ((c : Thread nD τ).loc main_arg0) : S16384x2048.Idx → EReal) (ix2 r d) := by
  obtain ⟨f00, f01, f10, f11, f20, f21, f30, f31, f40, f41, f50, f51, f60, f61, f70, f71, f81, f80⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = r.val; omega
  | ⟨1, _⟩ => show win0_0.index t (1 : Fin 2) * 2048 + 1 * d.val = d.val; omega

/-- Window 1's block is its whole array at every point. -/
theorem blk1_apply (c : Dev nD) (t : Fin cfg0.N) (u : Fin 2048) (v : Fin 2048) :
    (iblk m c 1 t : S2048x2048.Idx → EReal) (ix2 u v) = (V m c main_arg1 : S2048x2048.Idx → EReal) (ix2 u v) := by
  obtain ⟨f00, f01, f10, f11, f20, f21, f30, f31, f40, f41, f50, f51, f60, f61, f70, f71, f81, f80⟩ := idx_facts t
  unfold iblk
  rw [View.read_apply]
  show V m c main_arg1 _ = V m c main_arg1 _
  congr 1
  funext a
  apply Fin.ext
  match a with
  | ⟨0, _⟩ => show win0_1.index t (0 : Fin 2) * 2048 + 1 * u.val = u.val; omega
  | ⟨1, _⟩ => show win0_1.index t (1 : Fin 2) * 2048 + 1 * v.val = v.val; omega

/-- Window 2's block is its whole array at every point. -/
theorem blk2_apply (c : Dev nD) (t : Fin cfg0.N) (u : Fin 2048) (v : Fin 768) :
    (iblk m c 2 t : S2048x768.Idx → EReal) (ix2 u v) = (V m c main_v0 : S2048x768.Idx → EReal) (ix2 u v) := by
  obtain ⟨f00, f01, f10, f11, f20, f21, f30, f31, f40, f41, f50, f51, f60, f61, f70, f71, f81, f80⟩ := idx_facts t
  unfold iblk
  rw [View.read_apply]
  show V m c main_v0 _ = V m c main_v0 _
  congr 1
  funext a
  apply Fin.ext
  match a with
  | ⟨0, _⟩ => show win0_2.index t (0 : Fin 2) * 2048 + 1 * u.val = u.val; omega
  | ⟨1, _⟩ => show win0_2.index t (1 : Fin 2) * 768 + 1 * v.val = v.val; omega

/-- Window 3's block is its whole array at every point. -/
theorem blk3_apply (c : Dev nD) (t : Fin cfg0.N) (u : Fin 768) (v : Fin 2048) :
    (iblk m c 3 t : S768x2048.Idx → EReal) (ix2 u v) = (V m c main_v2 : S768x2048.Idx → EReal) (ix2 u v) := by
  obtain ⟨f00, f01, f10, f11, f20, f21, f30, f31, f40, f41, f50, f51, f60, f61, f70, f71, f81, f80⟩ := idx_facts t
  unfold iblk
  rw [View.read_apply]
  show V m c main_v2 _ = V m c main_v2 _
  congr 1
  funext a
  apply Fin.ext
  match a with
  | ⟨0, _⟩ => show win0_3.index t (0 : Fin 2) * 768 + 1 * u.val = u.val; omega
  | ⟨1, _⟩ => show win0_3.index t (1 : Fin 2) * 2048 + 1 * v.val = v.val; omega

/-- Window 4's block is its whole array at every point. -/
theorem blk4_apply (c : Dev nD) (t : Fin cfg0.N) (u : Fin 8) (v : Fin 768) :
    (iblk m c 4 t : S8x768.Idx → EReal) (ix2 u v) = (V m c main_v3 : S8x768.Idx → EReal) (ix2 u v) := by
  obtain ⟨f00, f01, f10, f11, f20, f21, f30, f31, f40, f41, f50, f51, f60, f61, f70, f71, f81, f80⟩ := idx_facts t
  unfold iblk
  rw [View.read_apply]
  show V m c main_v3 _ = V m c main_v3 _
  congr 1
  funext a
  apply Fin.ext
  match a with
  | ⟨0, _⟩ => show win0_4.index t (0 : Fin 2) * 8 + 1 * u.val = u.val; omega
  | ⟨1, _⟩ => show win0_4.index t (1 : Fin 2) * 768 + 1 * v.val = v.val; omega

/-- Window 5's block is its whole array at every point. -/
theorem blk5_apply (c : Dev nD) (t : Fin cfg0.N) (u : Fin 1) (v : Fin 768) :
    (iblk m c 5 t : S1x768.Idx → EReal) (ix2 u v) = (V m c main_v5 : S1x768.Idx → EReal) (ix2 u v) := by
  obtain ⟨f00, f01, f10, f11, f20, f21, f30, f31, f40, f41, f50, f51, f60, f61, f70, f71, f81, f80⟩ := idx_facts t
  unfold iblk
  rw [View.read_apply]
  show V m c main_v5 _ = V m c main_v5 _
  congr 1
  funext a
  apply Fin.ext
  match a with
  | ⟨0, _⟩ => show win0_5.index t (0 : Fin 2) * 1 + 1 * u.val = u.val; omega
  | ⟨1, _⟩ => show win0_5.index t (1 : Fin 2) * 768 + 1 * v.val = v.val; omega

/-- Window 6's block is its whole array at every point. -/
theorem blk6_apply (c : Dev nD) (t : Fin cfg0.N) (u : Fin 1) (v : Fin 8) :
    (iblk m c 6 t : S1x8.Idx → EReal) (ix2 u v) = (V m c main_arg7 : S1x8.Idx → EReal) (ix2 u v) := by
  obtain ⟨f00, f01, f10, f11, f20, f21, f30, f31, f40, f41, f50, f51, f60, f61, f70, f71, f81, f80⟩ := idx_facts t
  unfold iblk
  rw [View.read_apply]
  show V m c main_arg7 _ = V m c main_arg7 _
  congr 1
  funext a
  apply Fin.ext
  match a with
  | ⟨0, _⟩ => show win0_6.index t (0 : Fin 2) * 1 + 1 * u.val = u.val; omega
  | ⟨1, _⟩ => show win0_6.index t (1 : Fin 2) * 8 + 1 * v.val = v.val; omega

/-- Window 7's block is its whole array at every point. -/
theorem blk7_apply (c : Dev nD) (t : Fin cfg0.N) (u : Fin 1) (v : Fin 2048) :
    (iblk m c 7 t : S1x2048.Idx → EReal) (ix2 u v) = (V m c main_v6 : S1x2048.Idx → EReal) (ix2 u v) := by
  obtain ⟨f00, f01, f10, f11, f20, f21, f30, f31, f40, f41, f50, f51, f60, f61, f70, f71, f81, f80⟩ := idx_facts t
  unfold iblk
  rw [View.read_apply]
  show V m c main_v6 _ = V m c main_v6 _
  congr 1
  funext a
  apply Fin.ext
  match a with
  | ⟨0, _⟩ => show win0_7.index t (0 : Fin 2) * 1 + 1 * u.val = u.val; omega
  | ⟨1, _⟩ => show win0_7.index t (1 : Fin 2) * 2048 + 1 * v.val = v.val; omega

/-- The specification at the arguments as launched on core `c`. -/
abbrev result (c : Dev nD) : S16384x2048.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT `t` WRITES BACK is block `t` of the specification. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  simp only [View.ld_unit_zero (S := S256x2048) hz, View.ld_unit_zero (S := S2048x2048) hz, View.ld_unit_zero (S := S2048x768) hz,
    View.ld_unit_zero (S := S768x2048) hz, View.ld_unit_zero (S := S8x768) hz, View.ld_unit_zero (S := S1x768) hz,
    View.ld_unit_zero (S := S1x8) hz, View.ld_unit_zero (S := S1x2048) hz]
  rw [funext (Cert.KernelIdeal.Value.canon8_eq (F := Ideal) (iblk m c 0 t) (iblk m c 1 t) (iblk m c 2 t) (iblk m c 5 t) (iblk m c 6 t)
    (iblk m c 4 t) (iblk m c 3 t) (iblk m c 7 t))]
  obtain ⟨f00, f01, f10, f11, f20, f21, f30, f31, f40, f41, f50, f51, f60, f61, f70, f71, f81, f80⟩ := idx_facts t
  funext y
  obtain ⟨p, q, rfl⟩ : ∃ (p : Fin 256) (q : Fin 2048), y = ix2 p q := ⟨y 0, y 1, eq_ix2 y⟩
  have hrlt : win0_8.index t (0 : Fin 2) * 256 + p.val < 16384 := by have := p.isLt; omega
  have hemb : ((cfg0.win 8).blk t).view.emb (ix2 p q) = ix2 (⟨win0_8.index t (0 : Fin 2) * 256 + p.val, hrlt⟩ : Fin 16384) q := by
    funext a
    apply Fin.ext
    match a with
    | ⟨0, _⟩ => show win0_8.index t (0 : Fin 2) * 256 + 1 * p.val = win0_8.index t (0 : Fin 2) * 256 + p.val; omega
    | ⟨1, _⟩ => show win0_8.index t (1 : Fin 2) * 2048 + 1 * q.val = q.val; omega
  show Cert.KernelIdeal.Value.E8 (F := Ideal) (iblk m c 0 t) (iblk m c 1 t) (iblk m c 2 t) (iblk m c 5 t) (iblk m c 6 t)
      (iblk m c 4 t) (iblk m c 3 t) (iblk m c 7 t) (ix2 p q)
    = result m c (((cfg0.win 8).blk t).view.emb (ix2 p q))
  rw [hemb]
  refine (Cert.KernelRow.block_apply (iblk m c 0 t) (iblk m c 1 t) (iblk m c 2 t) (iblk m c 5 t) (iblk m c 6 t)
    (iblk m c 4 t) (iblk m c 3 t) (iblk m c 7 t) p q).trans ?_
  refine (rowOut_pad (a := 565) (b := 203) _ _
    (fun (d : Fin 2048) (j : Fin 565) => Cert.Staged.argU m c (ix2 d j))
    (fun (j : Fin 565) (k : Fin 2048) => Cert.Staged.argV m c (ix2 k j))
    (fun (e : Fin 8) (j : Fin 565) => Cert.Staged.argLam m c (ix2 e j))
    (fun j : Fin 565 => Cert.Staged.argW1 m c (ix2 j (0 : Fin 1)))
    _ _ _ _ _ _
    (fun d j => (blk2_apply m c t d _).trans (Cert.Staged.U_inside m c d j))
    (fun d j => (blk2_apply m c t d _).trans (Cert.Staged.U_outside m c d j))
    (fun j k => (blk3_apply m c t _ k).trans (Cert.Staged.Vt_inside m c j k))
    (fun e j => (blk4_apply m c t e _).trans (Cert.Staged.Lam_inside m c e j))
    (fun j => (blk5_apply m c t (0 : Fin 1) _).trans (Cert.Staged.W1_inside m c j)) q).trans ?_
  have h0 : Cert.KernelRow.rowP (iblk m c 0 t) p
      = fun d : Fin 2048 => (m ((c : Thread nD τ).loc main_arg0) : S16384x2048.Idx → EReal)
          (ix2 (⟨win0_8.index t (0 : Fin 2) * 256 + p.val, hrlt⟩ : Fin 16384) d) :=
    funext fun d => blk0_apply m c t p d _ rfl
  have h1 : (fun (d : Fin 2048) (k : Fin 2048) => (iblk m c 1 t : S2048x2048.Idx → EReal) (ix2 d k))
      = fun (d : Fin 2048) (k : Fin 2048) => (m ((c : Thread nD τ).loc main_arg1) : S2048x2048.Idx → EReal) (ix2 d k) :=
    funext fun d => funext fun k => (blk1_apply m c t d k).trans (congrFun (V_main_arg1 m c) _)
  have h6 : Cert.KernelRow.vecW2 (iblk m c 6 t)
      = fun e : Fin 8 => (m ((c : Thread nD τ).loc main_arg7) : S1x8.Idx → EReal) (ix2 (0 : Fin 1) e) :=
    funext fun e => (blk6_apply m c t (0 : Fin 1) e).trans (congrFun (V_main_arg7 m c) _)
  have h7 : (fun k : Fin 2048 => (iblk m c 7 t : S1x2048.Idx → EReal) (ix2 (0 : Fin 1) k))
      = fun k : Fin 2048 => Cert.Staged.argVv m c (ix1 k) :=
    funext fun k => (blk7_apply m c t (0 : Fin 1) k).trans (Cert.Staged.Vv_apply m c k)
  rw [h0, h1, h6, h7]
  rfl

/-- An index of the result is in point `t`'s block iff each coordinate is in the block's range on its axis. -/
theorem mem_blk (t : Fin cfg0.N) (i : S16384x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v7).slice (win0_8.rect t)).set ↔ _
  rw [View.set_slice_whole, Rect.mem_set_unit]
  exact Iff.rfl

/-- The blocks cover the result: row r lies in the block of point r / 256. -/
theorem cover (i : S16384x2048.Idx) :
    ∃ t : Fin cfg0.N, (cfg0.win 8).flush t = true ∧ i ∈ ((cfg0.win 8).blk t).view.set := by
  have hi0 : (i 0).val < 16384 := (i 0).isLt
  have hi1 : (i 1).val < 2048 := (i 1).isLt
  obtain ⟨t, ht⟩ := idx_onto ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 2048 ≤ (i 1).val ∧ (i 1).val < win0_8.index t (1 : Fin 2) * 2048 + 2048; omega

/-- THE RESULT ARRAY after the run is the specification. -/
theorem final (c : Dev nD) : (dats m 0 c).arrAt 8 cfg0.N = result m c :=
  (dats m 0 c).arrAt_eq_of_cover 8 (result m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelValue

end
-- ==== Proof.RefRead.lean ====
/-
  The reference program's result, entry by entry, at the ideal values.

  The reference computes, for each of the 16384 rows of x, exactly the row function `RowSpec.rowOut` of that row and
  the (unpadded, 565-direction) weights: the projections x·U, the score against w1 (a product with a one-column
  matrix), the logits (a product of the one-column score with the one-row w2, a sum of ONE term), the softmax along the
  experts with its maximum guarded by −∞, the gate-weighted scales, the gate's sum, the low-rank term through Vᵀ, and
  (base · gate sum + low-rank term) · (1 + v). Each stage of the generated read of the program is identified, at an
  index written by coordinates, with the corresponding piece of the row function.
-/
import proofs.«138142_j10642928959975_2_alg».proof.Proof.Gen.ReferenceIdeal.Read
import proofs.«138142_j10642928959975_2_alg».proof.Proof.RowSpec

noncomputable section

namespace Cert.RefRead

open Cert.ReferenceIdeal Cert.ReferenceIdeal.Gen Cert.ReferenceIdeal.Read Idealize.ShloMosaic Idealize.ShloMosaic.ValueIdx
  Cert.RowSpec Cert.LibMaxReduce

variable (x0 : (⟨S16384x2048, .f32⟩ : BufTy).Contents (Elt Ideal)) (x1 : (⟨S2048x2048, .f32⟩ : BufTy).Contents (Elt Ideal))
  (x2 x3 : (⟨S2048x565, .f32⟩ : BufTy).Contents (Elt Ideal)) (x4 : (⟨S8x565, .f32⟩ : BufTy).Contents (Elt Ideal))
  (x5 : (⟨S2048, .f32⟩ : BufTy).Contents (Elt Ideal)) (x6 : (⟨S565x1, .f32⟩ : BufTy).Contents (Elt Ideal))
  (x7 : (⟨S1x8, .f32⟩ : BufTy).Contents (Elt Ideal))

/-- Row `r` of x. -/
abbrev rowX (r : Fin 16384) : Fin 2048 → EReal := fun d => x0 (ix2 r d)
/-- The directions U by row and column. -/
abbrev matU : Fin 2048 → Fin 565 → EReal := fun d j => x2 (ix2 d j)
/-- The score vector w1 (a one-column matrix). -/
abbrev vecW1 : Fin 565 → EReal := fun j => x6 (ix2 j (0 : Fin 1))
/-- The expert vector w2 (a one-row matrix). -/
abbrev vecW2 : Fin 8 → EReal := fun e => x7 (ix2 (0 : Fin 1) e)
/-- The expert scales lam. -/
abbrev matLam : Fin 8 → Fin 565 → EReal := fun e j => x4 (ix2 e j)

/-- The score of row `r`. -/
abbrev scoreR (r : Fin 16384) : EReal := score (rowX x0 r) (matU x2) (vecW1 x6)

/-- The projections x·U at (r, j). -/
theorem proj_apply (r : Fin 16384) (j : Fin 565) :
    val_main_v0 (F := Ideal) x0 x2 (ix2 r j) = proj (rowX x0 r) (matU x2) j := by
  rw [val_main_v0_apply]
  refine Finset.sum_congr rfl fun k _ => ?_
  rw [show lidx_main_v0 (ix2 r j) k = ix2 r k from funext fun a => match a with | ⟨0, _⟩ => rfl | ⟨1, _⟩ => rfl,
    show ridx_main_v0 (ix2 r j) k = ix2 k j from funext fun a => match a with | ⟨0, _⟩ => rfl | ⟨1, _⟩ => rfl]

/-- The score column at (r, u). -/
theorem score_apply (r : Fin 16384) (u : Fin 1) :
    val_main_v1 (F := Ideal) x0 x2 x6 (ix2 r u) = scoreR x0 x2 x6 r := by
  obtain rfl : u = 0 := Subsingleton.elim u 0
  rw [val_main_v1_apply]
  refine Finset.sum_congr rfl fun k _ => ?_
  rw [show lidx_main_v1 (ix2 r (0 : Fin 1)) k = ix2 r k from funext fun a => match a with | ⟨0, _⟩ => rfl | ⟨1, _⟩ => rfl,
    show ridx_main_v1 (ix2 r (0 : Fin 1)) k = ix2 k (0 : Fin 1) from funext fun a => match a with | ⟨0, _⟩ => rfl | ⟨1, _⟩ => rfl,
    proj_apply]

/-- The logits at (r, e): a contraction over ONE term. -/
theorem logits_apply (r : Fin 16384) (e : Fin 8) :
    val_main_v2 (F := Ideal) x0 x2 x6 x7 (ix2 r e) = scoreR x0 x2 x6 r * vecW2 x7 e := by
  rw [val_main_v2_apply, Fin.sum_univ_one,
    show lidx_main_v2 (ix2 r e) (0 : Fin 1) = ix2 r (0 : Fin 1) from funext fun a => match a with | ⟨0, _⟩ => rfl | ⟨1, _⟩ => rfl,
    show ridx_main_v2 (ix2 r e) (0 : Fin 1) = ix2 (0 : Fin 1) e from funext fun a => match a with | ⟨0, _⟩ => rfl | ⟨1, _⟩ => rfl,
    score_apply]

/-- The guarded row maximum at `r`. -/
theorem max_apply (r : Fin 16384) :
    val_main_v5 (F := Ideal) x0 x2 x6 x7 (ix1 r) = logitMax (scoreR x0 x2 x6 r) (vecW2 x7) := by
  show max (val_main_v4 (F := Ideal) (ix1 r)) (val_main_v3 (F := Ideal) x0 x2 x6 x7 (ix1 r)) = _
  rw [val_main_v4_apply]
  unfold val_main_v3
  rw [hostReduce_maximumf_lastAxis_apply (a := 16384) (b := 8) _ _ reducesTo_S16384x8_S16384_d1 (by decide) h_S_ r]
  unfold logitMax
  simp only [logits_apply]
  rfl

/-- The exponentials at (r, e). -/
theorem exp_apply (r : Fin 16384) (e : Fin 8) :
    val_main_v9 (F := Ideal) x0 x2 x6 x7 (ix2 r e)
      = Ideal.exp (scoreR x0 x2 x6 r * vecW2 x7 e - logitMax (scoreR x0 x2 x6 r) (vecW2 x7)) := by
  show Ideal.exp (val_main_v2 (F := Ideal) x0 x2 x6 x7 (ix2 r e) - val_main_v7 (F := Ideal) x0 x2 x6 x7 (ix2 r e)) = _
  rw [val_main_v7_apply, val_main_v6_apply, logits_apply,
    show idx_main_v6 (idx_main_v7 (ix2 r e)) = ix1 r from funext fun a => match a with | ⟨0, _⟩ => rfl, max_apply]

/-- The row sum of the exponentials at `r`. -/
theorem den_apply (r : Fin 16384) :
    val_main_v10 (F := Ideal) x0 x2 x6 x7 (ix1 r)
      = ∑ k : Fin 8, Ideal.exp (scoreR x0 x2 x6 r * vecW2 x7 k - logitMax (scoreR x0 x2 x6 r) (vecW2 x7)) := by
  rw [val_main_v10_apply, val_main_cst_1_apply, Ideal.ofBits_def, Ideal.ofBits_zero_f32, zero_add]
  refine Finset.sum_congr rfl fun k _ => ?_
  rw [show idx_main_v10 (ix1 r) k = ix2 r k from funext fun a => match a with | ⟨0, _⟩ => rfl | ⟨1, _⟩ => rfl, exp_apply]

/-- The gate at (r, e). -/
theorem gate_apply (r : Fin 16384) (e : Fin 8) :
    val_main_v13 (F := Ideal) x0 x2 x6 x7 (ix2 r e) = gateW (scoreR x0 x2 x6 r) (vecW2 x7) e := by
  rw [val_main_v13_apply, Ideal.hostDivf_def, val_main_v12_apply, val_main_v11_apply, exp_apply,
    show idx_main_v11 (idx_main_v12 (ix2 r e)) = ix1 r from funext fun a => match a with | ⟨0, _⟩ => rfl, den_apply]
  rfl

/-- The gate's sum at `r`. -/
theorem gateSum_apply (r : Fin 16384) :
    val_main_v16 (F := Ideal) x0 x2 x6 x7 (ix1 r) = ∑ e : Fin 8, gateW (scoreR x0 x2 x6 r) (vecW2 x7) e := by
  rw [val_main_v16_apply, val_main_cst_2_apply, Ideal.ofBits_def, Ideal.ofBits_zero_f32, zero_add]
  refine Finset.sum_congr rfl fun k _ => ?_
  rw [show idx_main_v16 (ix1 r) k = ix2 r k from funext fun a => match a with | ⟨0, _⟩ => rfl | ⟨1, _⟩ => rfl, gate_apply]

/-- The gate-weighted scales at (r, j). -/
theorem coef_apply (r : Fin 16384) (j : Fin 565) :
    val_main_v15 (F := Ideal) x0 x2 x4 x6 x7 (ix2 r j) = coef (scoreR x0 x2 x6 r) (vecW2 x7) (matLam x4) j := by
  rw [val_main_v15_apply]
  refine Finset.sum_congr rfl fun k _ => ?_
  rw [show lidx_main_v15 (ix2 r j) k = ix2 r k from funext fun a => match a with | ⟨0, _⟩ => rfl | ⟨1, _⟩ => rfl,
    show ridx_main_v15 (ix2 r j) k = ix2 k j from funext fun a => match a with | ⟨0, _⟩ => rfl | ⟨1, _⟩ => rfl, gate_apply]

/-- The low-rank term at (r, c). -/
theorem lowRank_apply (r : Fin 16384) (c : Fin 2048) :
    val_main_v22 (F := Ideal) x0 x2 x3 x4 x6 x7 (ix2 r c)
      = ∑ j : Fin 565, (proj (rowX x0 r) (matU x2) j * coef (scoreR x0 x2 x6 r) (vecW2 x7) (matLam x4) j) * x3 (ix2 c j) := by
  rw [val_main_v22_apply]
  refine Finset.sum_congr rfl fun k _ => ?_
  rw [show lidx_main_v22 (ix2 r c) k = ix2 r k from funext fun a => match a with | ⟨0, _⟩ => rfl | ⟨1, _⟩ => rfl,
    show ridx_main_v22 (ix2 r c) k = ix2 k c from funext fun a => match a with | ⟨0, _⟩ => rfl | ⟨1, _⟩ => rfl,
    val_main_v21_apply,
    show idx_main_v21 (ix2 k c) = ix2 c k from funext fun a => match a with | ⟨0, _⟩ => rfl | ⟨1, _⟩ => rfl]
  show val_main_v0 (F := Ideal) x0 x2 (ix2 r k) * val_main_v15 (F := Ideal) x0 x2 x4 x6 x7 (ix2 r k) * _ = _
  rw [proj_apply, coef_apply]

/-- The dense term at (r, c). -/
theorem base_apply (r : Fin 16384) (c : Fin 2048) :
    val_main_v14 (F := Ideal) x0 x1 (ix2 r c) = ∑ d : Fin 2048, x0 (ix2 r d) * x1 (ix2 d c) := by
  rw [val_main_v14_apply]
  refine Finset.sum_congr rfl fun k _ => ?_
  rw [show lidx_main_v14 (ix2 r c) k = ix2 r k from funext fun a => match a with | ⟨0, _⟩ => rfl | ⟨1, _⟩ => rfl,
    show ridx_main_v14 (ix2 r c) k = ix2 k c from funext fun a => match a with | ⟨0, _⟩ => rfl | ⟨1, _⟩ => rfl]

/-- The factor 1 + v at (r, c). -/
theorem scale_apply (r : Fin 16384) (c : Fin 2048) :
    val_main_v27 (F := Ideal) x5 (ix2 r c) = one + x5 (ix1 c) := by
  rw [val_main_v27_apply, val_main_v26_apply]
  show val_main_v24 (F := Ideal) _ + x5 _ = _
  rw [val_main_v24_apply]
  exact congrArg (fun i => one + x5 i) (funext fun a => match a with | ⟨0, _⟩ => rfl)

/-- THE RESULT at (r, c): the row function of row `r` and the weights, at column `c`. -/
theorem result_apply (r : Fin 16384) (c : Fin 2048) :
    val_main_v28 (F := Ideal) x0 x1 x2 x3 x4 x5 x6 x7 (ix2 r c)
      = rowOut (rowX x0 r) (fun d c => x1 (ix2 d c)) (matU x2) (fun j c => x3 (ix2 c j)) (matLam x4) (vecW1 x6) (vecW2 x7)
          (fun c => x5 (ix1 c)) c := by
  rw [val_main_v28_apply, val_main_v23_apply, val_main_v19_apply, Ideal.mulf_def, Ideal.addf_def, Ideal.mulf_def, val_main_v18_apply, val_main_v17_apply,
    show idx_main_v17 (idx_main_v18 (ix2 r c)) = ix1 r from funext fun a => match a with | ⟨0, _⟩ => rfl,
    base_apply, gateSum_apply, lowRank_apply, scale_apply]
  rfl

end Cert.RefRead

end
-- ==== Proof.RefSpec.lean ====
/-
  The reference program's result IS the specification `Spec.G` of its arguments: both are, at every index (r, c), the
  row function of row r at column c.
-/
import proofs.«138142_j10642928959975_2_alg».proof.Proof.RefRead
import proofs.«138142_j10642928959975_2_alg».proof.Proof.Spec

noncomputable section

namespace Cert.RefSpec

open Cert.ReferenceIdeal Cert.ReferenceIdeal.Gen Cert.ReferenceIdeal.Read Idealize.ShloMosaic Idealize.ShloMosaic.ValueIdx

/-- The reference's last stage, as a whole array, is `G` of the arguments. -/
theorem ref_eq (x0 : (⟨S16384x2048, .f32⟩ : BufTy).Contents (Elt Ideal)) (x1 : (⟨S2048x2048, .f32⟩ : BufTy).Contents (Elt Ideal))
    (x2 x3 : (⟨S2048x565, .f32⟩ : BufTy).Contents (Elt Ideal)) (x4 : (⟨S8x565, .f32⟩ : BufTy).Contents (Elt Ideal))
    (x5 : (⟨S2048, .f32⟩ : BufTy).Contents (Elt Ideal)) (x6 : (⟨S565x1, .f32⟩ : BufTy).Contents (Elt Ideal))
    (x7 : (⟨S1x8, .f32⟩ : BufTy).Contents (Elt Ideal)) :
    val_main_v28 (F := Ideal) x0 x1 x2 x3 x4 x5 x6 x7 = Cert.Spec.G x0 x1 x2 x3 x4 x5 x6 x7 := by
  funext i
  obtain ⟨r, c, rfl⟩ : ∃ (r : Fin 16384) (c : Fin 2048), i = ix2 r c := ⟨i 0, i 1, eq_ix2 i⟩
  rw [Cert.RefRead.result_apply]
  rfl

end Cert.RefSpec

end
-- ==== Proof.lean ====
/-
  A gated sum of low-rank experts on a dense weight, computed by a tiled kernel and by a plain reference: the two
  results are equal on the extended reals.

  For a row x_r of the input, with projections p_j = Σ_d x_{r,d} · U_{d,j}, score s = Σ_j p_j · w1_j, logits s · w2_e and
  gate g = softmax of the logits along the 8 experts, both programs compute

      out(r, c) = ( (Σ_d x_{r,d} · W_{d,c}) · Σ_e g_e  +  Σ_j (p_j · Σ_e g_e · lam_{e,j}) · V_{c,j} ) · (1 + v_c).

  The reference does so with 565 directions on whole arrays (`RefRead`, `RefSpec`). The kernel works on blocks of 256
  rows, one per grid point, with the weights padded to 768 directions by zero columns of U (and zero entries of Vᵀ,
  lam and w1), keeps the softmax statistics as columns, and writes each block back; the blocks tile the result
  (`KernelRow`, `Staged`, `KernelValue`). A padded direction's projection is a sum of products with zero, so it is
  zero and contributes nothing to the score or to the low-rank sum — for every extended real, so the law that joins the
  two sides (`RowSpec.rowOut_pad`) needs no finiteness and the precondition is never opened. Everything else is the same
  operations in the same order: a matrix product into a zero accumulator against the host's product, a lane sum against
  the host's sum from zero, a product with a one-row matrix against a contraction over one term.

  The three frames are the generated ones (the reference's is its generated run with the result dropped); the
  idealization rewrote nothing, so `preserves` is trivial.
-/
import proofs.«138142_j10642928959975_2_alg».proof.Defs
import proofs.«138142_j10642928959975_2_alg».proof.Proof.Gen.Kernel
import proofs.«138142_j10642928959975_2_alg».proof.Proof.Gen.Kernel.Skeleton
import proofs.«138142_j10642928959975_2_alg».proof.Proof.Gen.Kernel.Launch
import proofs.«138142_j10642928959975_2_alg».proof.Proof.Gen.Kernel.Points
import proofs.«138142_j10642928959975_2_alg».proof.Proof.Gen.Kernel.Frame
import proofs.«138142_j10642928959975_2_alg».proof.Proof.Gen.KernelIdeal
import proofs.«138142_j10642928959975_2_alg».proof.Proof.Gen.KernelIdeal.Skeleton
import proofs.«138142_j10642928959975_2_alg».proof.Proof.Gen.KernelIdeal.Launch
import proofs.«138142_j10642928959975_2_alg».proof.Proof.Gen.KernelIdeal.Points
import proofs.«138142_j10642928959975_2_alg».proof.Proof.Gen.KernelIdeal.Frame
import proofs.«138142_j10642928959975_2_alg».proof.Proof.Gen.ReferenceIdeal
import proofs.«138142_j10642928959975_2_alg».proof.Proof.Gen.Pre_finite_inputs
import proofs.«138142_j10642928959975_2_alg».proof.Proof.Gen.KernelIdeal.Value
import proofs.«138142_j10642928959975_2_alg».proof.Proof.Gen.ReferenceIdeal.Run
import proofs.«138142_j10642928959975_2_alg».proof.Proof.Gen.ReferenceIdeal.Read
import proofs.«138142_j10642928959975_2_alg».proof.Proof.KernelValue
import proofs.«138142_j10642928959975_2_alg».proof.Proof.RefSpec
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification of their (agreeing) arguments in the result array. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.RefSpec.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
